-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16384x512 : Shape := ⟨3, ![8, 16384, 512]⟩
abbrev S8x512x1024 : Shape := ⟨3, ![8, 512, 1024]⟩
abbrev S8x1024 : Shape := ⟨2, ![8, 1024]⟩
abbrev S8x1024x64 : Shape := ⟨3, ![8, 1024, 64]⟩
abbrev S8x64 : Shape := ⟨2, ![8, 64]⟩
abbrev S131072 : Shape := ⟨1, ![131072]⟩
abbrev S_ : Shape := ⟨0, ![]⟩

class Facts : Prop where
  bcast_S_S8x16384x512 : S_.BroadcastsInDim S8x16384x512 (![] : Fin 0 → Fin S8x16384x512.rank)
  reducesTo_S8x16384x512_S_d0_1_2 : S8x16384x512.ReducesTo [0, 1, 2] S_
  h_S_ : 0 < S_.numel
  bcast_S_S8x512x1024 : S_.BroadcastsInDim S8x512x1024 (![] : Fin 0 → Fin S8x512x1024.rank)
  reducesTo_S8x512x1024_S_d0_1_2 : S8x512x1024.ReducesTo [0, 1, 2] S_
  bcast_S_S8x1024 : S_.BroadcastsInDim S8x1024 (![] : Fin 0 → Fin S8x1024.rank)
  reducesTo_S8x1024_S_d0_1 : S8x1024.ReducesTo [0, 1] S_
  bcast_S_S8x1024x64 : S_.BroadcastsInDim S8x1024x64 (![] : Fin 0 → Fin S8x1024x64.rank)
  reducesTo_S8x1024x64_S_d0_1_2 : S8x1024x64.ReducesTo [0, 1, 2] S_
  bcast_S_S8x64 : S_.BroadcastsInDim S8x64 (![] : Fin 0 → Fin S8x64.rank)
  reducesTo_S8x64_S_d0_1 : S8x64.ReducesTo [0, 1] S_

variable [Facts]

def fn_part1 {F : FTy → Type} [FloatOps F] (main_arg4 : FVec F S8x64 .f32) (main_v13 : IVec S_ 1) (main_v16 : IVec S8x1024x64 1) : IVec S_ 1 :=
  let main_c_5 : IVec S_ 1 := constantI S_ 1 1#1
  let main_v17 : IVec S_ 1 := (fun x v => Host.reduce IntOp.andi x v reducesTo_S8x1024x64_S_d0_1_2 h_S_) main_v16 main_c_5
  let main_v18 : IVec S_ 1 := andi main_v13 main_v17
  let main_v19 : FVec F S8x64 .f32 := Host.absf main_arg4
  let main_cst_6 : FVec F S_ .f32 := constant S_ .f32 0x7F800000#32
  let main_v20 : FVec F S8x64 .f32 := broadcastInDim S8x64 ![] bcast_S_S8x64 main_cst_6
  let main_v21 : IVec S8x64 1 := cmpf .olt main_v19 main_v20
  let main_c_7 : IVec S_ 1 := constantI S_ 1 1#1
  let main_v22 : IVec S_ 1 := (fun x v => Host.reduce IntOp.andi x v reducesTo_S8x64_S_d0_1 h_S_) main_v21 main_c_7
  let main_v23 : IVec S_ 1 := andi main_v18 main_v22
  main_v23

def fn {F : FTy → Type} [FloatOps F] (main_arg0 : FVec F S8x16384x512 .f32) (main_arg1 : FVec F S8x512x1024 .f32) (main_arg2 : FVec F S8x1024 .f32) (main_arg3 : FVec F S8x1024x64 .f32) (main_arg4 : FVec F S8x64 .f32) (main_arg5 : IVec S131072 32) : IVec S_ 1 :=
  let main_v0 : FVec F S8x16384x512 .f32 := Host.absf main_arg0
  let main_cst : FVec F S_ .f32 := constant S_ .f32 0x7F800000#32
  let main_v1 : FVec F S8x16384x512 .f32 := broadcastInDim S8x16384x512 ![] bcast_S_S8x16384x512 main_cst
  let main_v2 : IVec S8x16384x512 1 := cmpf .olt main_v0 main_v1
  let main_c : IVec S_ 1 := constantI S_ 1 1#1
  let main_v3 : IVec S_ 1 := (fun x v => Host.reduce IntOp.andi x v reducesTo_S8x16384x512_S_d0_1_2 h_S_) main_v2 main_c
  let main_v4 : FVec F S8x512x1024 .f32 := Host.absf main_arg1
  let main_cst_0 : FVec F S_ .f32 := constant S_ .f32 0x7F800000#32
  let main_v5 : FVec F S8x512x1024 .f32 := broadcastInDim S8x512x1024 ![] bcast_S_S8x512x1024 main_cst_0
  let main_v6 : IVec S8x512x1024 1 := cmpf .olt main_v4 main_v5
  let main_c_1 : IVec S_ 1 := constantI S_ 1 1#1
  let main_v7 : IVec S_ 1 := (fun x v => Host.reduce IntOp.andi x v reducesTo_S8x512x1024_S_d0_1_2 h_S_) main_v6 main_c_1
  let main_v8 : IVec S_ 1 := andi main_v3 main_v7
  let main_v9 : FVec F S8x1024 .f32 := Host.absf main_arg2
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  let main_v14 : FVec F S8x1024x64 .f32 := Host.absf main_arg3
  let main_cst_4 : FVec F S_ .f32 := constant S_ .f32 0x7F800000#32
  let main_v15 : FVec F S8x1024x64 .f32 := broadcastInDim S8x1024x64 ![] bcast_S_S8x1024x64 main_cst_4
  let main_v16 : IVec S8x1024x64 1 := cmpf .olt main_v14 main_v15
  fn_part1 (F := F) main_arg4 main_v13 main_v16
-- ==== Kernel.lean ====
abbrev S8x16384x512 : Shape := ⟨3, ![8, 16384, 512]⟩
abbrev S8x512x1024 : Shape := ⟨3, ![8, 512, 1024]⟩
abbrev S8x1024 : Shape := ⟨2, ![8, 1024]⟩
abbrev S8x1024x64 : Shape := ⟨3, ![8, 1024, 64]⟩
abbrev S8x64 : Shape := ⟨2, ![8, 64]⟩
abbrev S131072 : Shape := ⟨1, ![131072]⟩
abbrev S8x1x1024 : Shape := ⟨3, ![8, 1, 1024]⟩
abbrev S8x1x64 : Shape := ⟨3, ![8, 1, 64]⟩
abbrev S8x16384x64 : Shape := ⟨3, ![8, 16384, 64]⟩
abbrev S1x1024x512 : Shape := ⟨3, ![1, 1024, 512]⟩
abbrev S1x512x1024 : Shape := ⟨3, ![1, 512, 1024]⟩
abbrev S1x1x1024 : Shape := ⟨3, ![1, 1, 1024]⟩
abbrev S1x1024x64 : Shape := ⟨3, ![1, 1024, 64]⟩
abbrev S1x1x64 : Shape := ⟨3, ![1, 1, 64]⟩
abbrev S1024x512 : Shape := ⟨2, ![1024, 512]⟩
abbrev S512x1024 : Shape := ⟨2, ![512, 1024]⟩
abbrev S1024x1024 : Shape := ⟨2, ![1024, 1024]⟩
abbrev S1x1024 : Shape := ⟨2, ![1, 1024]⟩
abbrev S1024x64 : Shape := ⟨2, ![1024, 64]⟩
abbrev S1x64 : Shape := ⟨2, ![1, 64]⟩
abbrev S8x16384 : Shape := ⟨2, ![8, 16384]⟩

abbrev nBuf : Space → Nat
  | .hbm => 13
  | .vmem => 12
  | .smem => 0
  | _ => 0

abbrev bufTy : (tb : Table) → Fin (tcTables nBuf tb) → BufTy
  | .hbm, ⟨0, _⟩ => ⟨S8x16384x512, .f32⟩
  | .hbm, ⟨1, _⟩ => ⟨S8x512x1024, .f32⟩
  | .hbm, ⟨2, _⟩ => ⟨S8x1024, .f32⟩
  | .hbm, ⟨3, _⟩ => ⟨S8x1024x64, .f32⟩
  | .hbm, ⟨4, _⟩ => ⟨S8x64, .f32⟩
  | .hbm, ⟨5, _⟩ => ⟨S131072, .i32⟩
  | .hbm, ⟨6, _⟩ => ⟨S8x1x1024, .f32⟩
  | .hbm, ⟨7, _⟩ => ⟨S8x1x64, .f32⟩
  | .hbm, ⟨8, _⟩ => ⟨S8x16384x64, .f32⟩
  | .hbm, ⟨9, _⟩ => ⟨S131072, .i32⟩
  | .hbm, ⟨10, _⟩ => ⟨S131072, .i32⟩
  | .hbm, ⟨11, _⟩ => ⟨S131072, .i32⟩
  | .hbm, ⟨12, _⟩ => ⟨S8x16384, .i32⟩
  | .local _ .vmem, ⟨0, _⟩ => ⟨S1x1024x512, .f32⟩
  | .local _ .vmem, ⟨1, _⟩ => ⟨S1x1024x512, .f32⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x64, .f32⟩
  | .local _ .vmem, ⟨7, _⟩ => ⟨S1x1024x64, .f32⟩
  | .local _ .vmem, ⟨8, _⟩ => ⟨S1x1x64, .f32⟩
  | .local _ .vmem, ⟨9, _⟩ => ⟨S1x1x64, .f32⟩
  | .local _ .vmem, ⟨10, _⟩ => ⟨S1x1024x64, .f32⟩
  | .local _ .vmem, ⟨11, _⟩ => ⟨S1x1024x64, .f32⟩
  | _, _ => ⟨S8x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1_0 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S8x1024_S8x1x1024 : S8x1024.ShapeCasts S8x1x1024
  shapeCasts_S8x64_S8x1x64 : S8x64.ShapeCasts S8x1x64
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  broadcasts_S1x64_S1024x64 : S1x64.Broadcasts S1024x64
  shapeCasts_S1024x64_S1x1024x64 : S1024x64.ShapeCasts S1x1024x64
  shapeCasts_S131072_S8x16384 : S131072.ShapeCasts S8x16384
  dot_S1024x512_S512x1024_S1024x1024_1_0_0_1_n_n_wf : DotDims.WF S1024x512 S512x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x16384x512.size a
  hwx0_0 : ∀ i : grid0.Coords, EltTy.bits .f32 = 32 ∨ (Rect.block (s := S8x16384x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x512x1024.size a
  hwx0_1 : ∀ i : grid0.Coords, EltTy.bits .f32 = 32 ∨ (Rect.block (s := S8x512x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x1024.size a
  hwx0_2 : ∀ i : grid0.Coords, EltTy.bits .f32 = 32 ∨ (Rect.block (s := S8x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S8x1024x64.size a
  hwx0_3 : ∀ i : grid0.Coords, EltTy.bits .f32 = 32 ∨ (Rect.block (s := S8x1024x64) S1x1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S8x1x64.size a
  hwx0_4 : ∀ i : grid0.Coords, EltTy.bits .f32 = 32 ∨ (Rect.block (s := S8x1x64) S1x1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x64.size a ≤ S8x16384x64.size a
  hwx0_5 : ∀ i : grid0.Coords, EltTy.bits .f32 = 32 ∨ (Rect.block (s := S8x16384x64) S1x1024x64.size (cc0_transform_5 i) (hinb0_5 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def comparator_i32_i32_d0 : BitVec 32 × BitVec 32 → BitVec 32 × BitVec 32 → BitVec 1 :=
  fun l r =>
    let v2 := IntOp.cmpi .slt l.1 r.1
    v2

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1024x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x16384x512 : Shape := ⟨3, ![8, 16384, 512]⟩
abbrev S8x512x1024 : Shape := ⟨3, ![8, 512, 1024]⟩
abbrev S8x1024 : Shape := ⟨2, ![8, 1024]⟩
abbrev S8x1024x64 : Shape := ⟨3, ![8, 1024, 64]⟩
abbrev S8x64 : Shape := ⟨2, ![8, 64]⟩
abbrev S131072 : Shape := ⟨1, ![131072]⟩
abbrev S8x16384x1024 : Shape := ⟨3, ![8, 16384, 1024]⟩
abbrev S8x1x1024 : Shape := ⟨3, ![8, 1, 1024]⟩
abbrev S_ : Shape := ⟨0, ![]⟩
abbrev S8x16384x64 : Shape := ⟨3, ![8, 16384, 64]⟩
abbrev S8x1x64 : Shape := ⟨3, ![8, 1, 64]⟩
abbrev S8x16384 : Shape := ⟨2, ![8, 16384]⟩

abbrev nBuf : Space → Nat
  | .hbm => 26
  | .vmem => 0
  | .smem => 0
  | _ => 0

abbrev bufTy : (tb : Table) → Fin (tcTables nBuf tb) → BufTy
  | .hbm, ⟨0, _⟩ => ⟨S8x16384x512, .f32⟩
  | .hbm, ⟨1, _⟩ => ⟨S8x512x1024, .f32⟩
  | .hbm, ⟨2, _⟩ => ⟨S8x1024, .f32⟩
  | .hbm, ⟨3, _⟩ => ⟨S8x1024x64, .f32⟩
  | .hbm, ⟨4, _⟩ => ⟨S8x64, .f32⟩
  | .hbm, ⟨5, _⟩ => ⟨S131072, .i32⟩
  | .hbm, ⟨6, _⟩ => ⟨S8x16384x1024, .f32⟩
  | .hbm, ⟨7, _⟩ => ⟨S8x1x1024, .f32⟩
  | .hbm, ⟨8, _⟩ => ⟨S8x16384x1024, .f32⟩
  | .hbm, ⟨9, _⟩ => ⟨S8x16384x1024, .f32⟩
  | .hbm, ⟨10, _⟩ => ⟨S8x16384x1024, .f32⟩
  | .hbm, ⟨11, _⟩ => ⟨S8x16384x1024, .f32⟩
  | .hbm, ⟨12, _⟩ => ⟨S_, .f32⟩
  | .hbm, ⟨13, _⟩ => ⟨S8x16384x1024, .f32⟩
  | .hbm, ⟨14, _⟩ => ⟨S8x16384x1024, .f32⟩
  | .hbm, ⟨15, _⟩ => ⟨S_, .f32⟩
  | .hbm, ⟨16, _⟩ => ⟨S8x16384x1024, .f32⟩
  | .hbm, ⟨17, _⟩ => ⟨S8x16384x1024, .f32⟩
  | .hbm, ⟨18, _⟩ => ⟨S8x16384x64, .f32⟩
  | .hbm, ⟨19, _⟩ => ⟨S8x1x64, .f32⟩
  | .hbm, ⟨20, _⟩ => ⟨S8x16384x64, .f32⟩
  | .hbm, ⟨21, _⟩ => ⟨S8x16384x64, .f32⟩
  | .hbm, ⟨22, _⟩ => ⟨S131072, .i32⟩
  | .hbm, ⟨23, _⟩ => ⟨S131072, .i32⟩
  | .hbm, ⟨24, _⟩ => ⟨S131072, .i32⟩
  | .hbm, ⟨25, _⟩ => ⟨S8x16384, .i32⟩
  | _, _ => ⟨S8x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1_0 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S8x1024_S8x1x1024_0_2 : S8x1024.BroadcastsInDim S8x1x1024 (![0, 2] : Fin 2 → Fin S8x1x1024.rank)
  bcast_S8x1x1024_S8x16384x1024_0_1_2 : S8x1x1024.BroadcastsInDim S8x16384x1024 (![0, 1, 2] : Fin 3 → Fin S8x16384x1024.rank)
  bcast_S_S8x16384x1024 : S_.BroadcastsInDim S8x16384x1024 (![] : Fin 0 → Fin S8x16384x1024.rank)
  bcast_S8x64_S8x1x64_0_2 : S8x64.BroadcastsInDim S8x1x64 (![0, 2] : Fin 2 → Fin S8x1x64.rank)
  bcast_S8x1x64_S8x16384x64_0_1_2 : S8x1x64.BroadcastsInDim S8x16384x64 (![0, 1, 2] : Fin 3 → Fin S8x16384x64.rank)
  shapeCasts_S131072_S8x16384 : S131072.ShapeCasts S8x16384
  dot_S8x16384x512_S8x512x1024_S8x16384x1024_2_1_1_2_0_0_wf : DotDims.WF S8x16384x512 S8x512x1024 S8x16384x1024 [2] [1] [1] [2] [0] [0]
  dot_S8x16384x1024_S8x1024x64_S8x16384x64_2_1_1_2_0_0_wf : DotDims.WF S8x16384x1024 S8x1024x64 S8x16384x64 [2] [1] [1] [2] [0] [0]

variable [Facts₀]

def dot_S8x16384x512_S8x512x1024_S8x16384x1024_2_1_1_2_0_0 : DotDims S8x16384x512 S8x512x1024 S8x16384x1024 where
  lhsContracting := [2]
  rhsContracting := [1]
  lhsNonContracting := [1]
  rhsNonContracting := [2]
  lhsBatch := [0]
  rhsBatch := [0]
  wf := dot_S8x16384x512_S8x512x1024_S8x16384x1024_2_1_1_2_0_0_wf
def dot_S8x16384x1024_S8x1024x64_S8x16384x64_2_1_1_2_0_0 : DotDims S8x16384x1024 S8x1024x64 S8x16384x64 where
  lhsContracting := [2]
  rhsContracting := [1]
  lhsNonContracting := [1]
  rhsNonContracting := [2]
  lhsBatch := [0]
  rhsBatch := [0]
  wf := dot_S8x16384x1024_S8x1024x64_S8x16384x64_2_1_1_2_0_0_wf
def comparator_i32_i32_d0 : BitVec 32 × BitVec 32 → BitVec 32 × BitVec 32 → BitVec 1 :=
  fun l r =>
    let v2 := IntOp.cmpi .slt l.1 r.1
    v2

class Facts : Prop extends Facts₀ where

variable [Facts]
-- ==== Proof.GroupedMlp.lean ====
/-
  The function both programs compute, over the extended reals.

  There are 8 independent two-layer perceptrons ("types"), each applied to its own 16384 rows.  For type `t`, row `n` and
  output column `o`:

      hidden t n h = σ( Σ_{d < 512} x[t, n, d] · w1[t, d, h]  +  b1[t, h] )            (h < 1024)
      out    t n o =    Σ_{h < 1024} hidden t n h · w2[t, h, o]  +  b2[t, o]

  where σ z = 1 / (1 + e^(−z)) is the logistic function on the extended reals (σ(−∞) = 0, σ(+∞) = 1).  The sums are
  finite sums in the commutative monoid of extended reals, so no question of order or of grouping arises; nothing here
  needs the entries to be finite.
-/
import Idealize.ShloMosaic.PureOps.Ideal
import Idealize.ShloMosaic.Lib.ValueIdx

noncomputable section

namespace Cert.GroupedMlp

open Idealize.ShloMosaic Idealize.ShloMosaic.ValueIdx

/-- The hidden activation of type `t` at row `n`, hidden unit `h`: the logistic function of the row's inner product with
    column `h` of the type's first weight matrix, plus the first bias. -/
def hidden (x : (⟨3, ![8, 16384, 512]⟩ : Shape).Idx → EReal) (w1 : (⟨3, ![8, 512, 1024]⟩ : Shape).Idx → EReal)
    (b1 : (⟨2, ![8, 1024]⟩ : Shape).Idx → EReal) (t : Fin 8) (n : Fin 16384) (h : Fin 1024) : EReal :=
  Ideal.logistic ((∑ d : Fin 512, x (ix3 t n d) * w1 (ix3 t d h)) + b1 (ix2 t h))

/-- The output of type `t` at row `n`, column `o`: the hidden row's inner product with column `o` of the type's second
    weight matrix, plus the second bias. -/
def outAt (x : (⟨3, ![8, 16384, 512]⟩ : Shape).Idx → EReal) (w1 : (⟨3, ![8, 512, 1024]⟩ : Shape).Idx → EReal)
    (b1 : (⟨2, ![8, 1024]⟩ : Shape).Idx → EReal) (w2 : (⟨3, ![8, 1024, 64]⟩ : Shape).Idx → EReal)
    (b2 : (⟨2, ![8, 64]⟩ : Shape).Idx → EReal) (t : Fin 8) (n : Fin 16384) (o : Fin 64) : EReal :=
  (∑ h : Fin 1024, hidden x w1 b1 t n h * w2 (ix3 t h o)) + b2 (ix2 t o)

/-- The whole output array: `outAt` at an index's three coordinates. -/
def out (x : (⟨3, ![8, 16384, 512]⟩ : Shape).Idx → EReal) (w1 : (⟨3, ![8, 512, 1024]⟩ : Shape).Idx → EReal)
    (b1 : (⟨2, ![8, 1024]⟩ : Shape).Idx → EReal) (w2 : (⟨3, ![8, 1024, 64]⟩ : Shape).Idx → EReal)
    (b2 : (⟨2, ![8, 64]⟩ : Shape).Idx → EReal) : (⟨3, ![8, 16384, 64]⟩ : Shape).Idx → EReal :=
  fun i => outAt x w1 b1 w2 b2 (i 0) (i 1) (i 2)

theorem out_ix3 (x : (⟨3, ![8, 16384, 512]⟩ : Shape).Idx → EReal) (w1 : (⟨3, ![8, 512, 1024]⟩ : Shape).Idx → EReal)
    (b1 : (⟨2, ![8, 1024]⟩ : Shape).Idx → EReal) (w2 : (⟨3, ![8, 1024, 64]⟩ : Shape).Idx → EReal)
    (b2 : (⟨2, ![8, 64]⟩ : Shape).Idx → EReal) (t : Fin 8) (n : Fin 16384) (o : Fin 64) :
    out x w1 b1 w2 b2 (ix3 t n o) = outAt x w1 b1 w2 b2 t n o := rfl

end Cert.GroupedMlp

end
-- ==== Proof.ReferenceIsMlp.lean ====
/-
  The reference computes the grouped perceptron of GroupedMlp.lean.

  Its program is a batched contraction `x[t] · w1[t]` (batch axis `t`, contracted axis `d`), the first bias broadcast over
  the rows, the logistic function spelt out as `1 / (1 + exp(−z))`, a second batched contraction with `w2[t]` over the
  hidden axis, and the second bias broadcast over the rows.  Read at an index `(t, n, o)`, every stage is the
  corresponding piece of `GroupedMlp.outAt`: the two contractions are the two finite sums, the two broadcasts read
  `b1[t, h]` and `b2[t, o]`, the constant `1.0` is the extended real 1, and the quotient and the exponential are the
  ones `Ideal.logistic` is defined by.
-/
import proofs.«180774_j7121055776912_1_alg».proof.Proof.Gen.ReferenceIdeal.Read
import proofs.«180774_j7121055776912_1_alg».proof.Proof.GroupedMlp
import Idealize.ShloMosaic.Lib.IdealHost

noncomputable section

namespace Cert.ReferenceIdeal.IsMlp

open Cert.ReferenceIdeal Cert.ReferenceIdeal.Read Idealize.ShloMosaic Idealize.ShloMosaic.ValueIdx Cert.GroupedMlp

/-- The reference's activation stage (after the quotient `1 / (1 + exp(−z))`) at `(t, n, h)` is `hidden t n h`. -/
theorem hidden_eq (x0 : (⟨S8x16384x512, .f32⟩ : BufTy).Contents (Elt Ideal)) (x1 : (⟨S8x512x1024, .f32⟩ : BufTy).Contents (Elt Ideal))
    (x2 : (⟨S8x1024, .f32⟩ : BufTy).Contents (Elt Ideal)) (t : Fin 8) (n : Fin 16384) (h : Fin 1024) :
    val_main_v9 (F := Ideal) x0 x1 x2 (ix3 t n h) = hidden x0 x1 x2 t n h := by
  have el : ∀ k : Fin 512, lidx_main_v0 (ix3 t n h) k = ix3 t n k := fun k => funext fun a => by
    match a with | ⟨0, _⟩ => rfl | ⟨1, _⟩ => rfl | ⟨2, _⟩ => rfl
  have er : ∀ k : Fin 512, ridx_main_v0 (ix3 t n h) k = ix3 t k h := fun k => funext fun a => by
    match a with | ⟨0, _⟩ => rfl | ⟨1, _⟩ => rfl | ⟨2, _⟩ => rfl
  have eb : idx_main_v1 (idx_main_v2 (ix3 t n h)) = ix2 t h := funext fun a => by
    match a with | ⟨0, _⟩ => rfl | ⟨1, _⟩ => rfl
  rw [val_main_v9_apply, val_main_v8_apply, val_main_cst_0_apply, val_main_v7_apply, val_main_v6_apply, val_main_cst_apply,
    val_main_v5_apply, val_main_v4_apply, val_main_v3_apply, val_main_v0_apply, val_main_v2_apply, val_main_v1_apply]
  simp only [el, er, eb, Ideal.ofBits_def, Ideal.ofBits_one_f32]
  rfl

/-- The reference's result, as a stage of its arguments, is the grouped perceptron. -/
theorem result_eq (x0 : (⟨S8x16384x512, .f32⟩ : BufTy).Contents (Elt Ideal)) (x1 : (⟨S8x512x1024, .f32⟩ : BufTy).Contents (Elt Ideal))
    (x2 : (⟨S8x1024, .f32⟩ : BufTy).Contents (Elt Ideal)) (x3 : (⟨S8x1024x64, .f32⟩ : BufTy).Contents (Elt Ideal))
    (x4 : (⟨S8x64, .f32⟩ : BufTy).Contents (Elt Ideal)) :
    val_main_v13 (F := Ideal) x0 x1 x2 x3 x4 = out x0 x1 x2 x3 x4 := by
  funext i
  obtain ⟨t, n, o, rfl⟩ : ∃ (t : Fin 8) (n : Fin 16384) (o : Fin 64), i = ix3 t n o := ⟨i 0, i 1, i 2, eq_ix3 i⟩
  have el : ∀ k : Fin 1024, lidx_main_v10 (ix3 t n o) k = ix3 t n k := fun k => funext fun a => by
    match a with | ⟨0, _⟩ => rfl | ⟨1, _⟩ => rfl | ⟨2, _⟩ => rfl
  have er : ∀ k : Fin 1024, ridx_main_v10 (ix3 t n o) k = ix3 t k o := fun k => funext fun a => by
    match a with | ⟨0, _⟩ => rfl | ⟨1, _⟩ => rfl | ⟨2, _⟩ => rfl
  have eb : idx_main_v11 (idx_main_v12 (ix3 t n o)) = ix2 t o := funext fun a => by
    match a with | ⟨0, _⟩ => rfl | ⟨1, _⟩ => rfl
  rw [val_main_v13_apply, val_main_v10_apply, val_main_v12_apply, val_main_v11_apply, out_ix3]
  simp only [el, er, eb, hidden_eq]
  rfl

end Cert.ReferenceIdeal.IsMlp

end
-- ==== Proof.LibMatmulNN.lean ====
/-
  A matrix product read at an entry, over the extended reals.

  For an M×K array `a` and a K×N array `w`, the product contracting `a`'s second axis with `w`'s first, accumulated into
  the zero array, has at entry (p, n) the value  Σ_{k < K} a[p, k] · w[k, n]:  a finite sum of products of extended
  reals, with nothing left of any blocking or order of accumulation.
-/
import Idealize.ShloMosaic.PureOps.Ideal.Laws
import Idealize.ShloMosaic.Lib.ValueIdx

noncomputable section

namespace Cert.LibMatmulNN

open Idealize.ShloMosaic Idealize.ShloMosaic.ValueIdx

/-- At the ideal values, a `tpu.matmul` of an M×K by a K×N array whose dimension numbers are the plain ones
    (contract the left operand's axis 1 with the right operand's axis 0, no batch axis), into the zero accumulator,
    read at entry `(p, n)`, is the sum over `k` of `a[p, k] * w[k, n]`.  The dimension record is any one equal to
    `DotDims.plain M K N` (a printed program's own record is, by `rfl`). -/
theorem matmul_zero_apply {M K N : Nat} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (n : Fin N) :
    FloatOps.matmul D prec a w (constant ⟨2, ![M, N]⟩ .f32 0x00000000#32) (ix2 p n)
      = ∑ k : Fin K, a (ix2 p k) * w (ix2 k n) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p n) ((contrEquiv1 (DotDims.plain M K N) K rfl rfl).symm k) = ix2 p k :=
    funext fun ax => Fin.ext (by
      match ax with
      | ⟨0, _⟩ => rfl
      | ⟨1, _⟩ => exact ((DotDims.plain M K N).lhsIdx_val_of_single rfl _ _).trans hk)
  have er : (DotDims.plain M K N).rhsIdx (ix2 p n) ((contrEquiv1 (DotDims.plain M K N) K rfl rfl).symm k) = ix2 k n :=
    funext fun ax => Fin.ext (by
      match ax with
      | ⟨0, _⟩ => exact ((DotDims.plain M K N).rhsIdx_val_of_single rfl _ _).trans hk
      | ⟨1, _⟩ => rfl)
  rw [el, er]

end Cert.LibMatmulNN

end
-- ==== Proof.BlockBody.lean ====
/-
  What the kernel body computes from its five loaded blocks, entry by entry.

  At a grid point the body holds a 1024-row block of `x` (1×1024×512), the type's whole first weight matrix (1×512×1024),
  its first bias row (1×1×1024), its whole second weight matrix (1×1024×64) and its second bias row (1×1×64).  It drops the
  leading unit axes, multiplies the row block by the first matrix, adds the bias row to every row, applies the logistic
  function, multiplies by the second matrix, adds the second bias row to every row, and puts the unit axis back.  The
  changes of float format in between are the identity on the extended reals.  So the stored block has, at row `r` and
  column `o`,

      Σ_{h < 1024} σ( Σ_{d < 512} X[0, r, d] · W1[0, d, h] + B1[0, 0, h] ) · W2[0, h, o]  +  B2[0, 0, o].
-/
import proofs.«180774_j7121055776912_1_alg».proof.Proof.Gen.KernelIdeal.Skeleton
import proofs.«180774_j7121055776912_1_alg».proof.Proof.LibMatmulNN
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- A 1×1×b row with its unit axis dropped and then broadcast over `a` rows reads, at `(p, c)`, the row's entry `c`. -/
theorem row_over_rows {a b : ℕ} (v : (⟨3, ![1, 1, b]⟩ : Shape).Idx → EReal)
    (hc : (⟨3, ![1, 1, b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix3 (0 : Fin 1) (0 : Fin 1) c) :=
  (broadcastTo_1b_ab_apply _ hb p c).trans (shapeCast_1ab_ab_apply v hc (0 : Fin 1) c)

/-- The first layer before the activation, at row `r` and hidden unit `h`: the row's inner product with the matrix's
    column `h`, plus the bias row's entry `h`. -/
theorem preact_apply (v0 : Vec Ideal S1x1024x512 .f32) (v3 : Vec Ideal S1x512x1024 .f32) (v7 : Vec Ideal S1x1x1024 .f32)
    (h0 : S1x1024x512.ShapeCasts S1024x512) (h3 : S1x512x1024.ShapeCasts S512x1024) (h7 : S1x1x1024.ShapeCasts S1x1024)
    (hb : S1x1024.Broadcasts S1024x1024) (hl : FTy.bits .bf16 < FTy.bits .f32) (r : Fin 1024) (h : Fin 1024) :
    addf (F := Ideal) (matmul dot_S1024x512_S512x1024_S1024x1024_1_0_0_1_n_n none
        (truncf .bf16 (shapeCast S1024x512 v0 h0) hl) (truncf .bf16 (shapeCast S512x1024 v3 h3) hl)
        (constant (F := Ideal) S1024x1024 .f32 0x00000000#32))
      (broadcastTo S1024x1024 (shapeCast S1x1024 v7 h7) hb) (ix2 r h)
    = (∑ d : Fin 512, v0 (ix3 (0 : Fin 1) r d) * v3 (ix3 (0 : Fin 1) d h)) + v7 (ix3 (0 : Fin 1) (0 : Fin 1) h) := by
  refine (addf_apply _ _ _).trans ?_
  refine congrArg₂ (· + ·) ?_ (row_over_rows v7 h7 hb r h)
  refine (Cert.LibMatmulNN.matmul_zero_apply dot_S1024x512_S512x1024_S1024x1024_1_0_0_1_n_n rfl none _ _ r h).trans ?_
  refine Finset.sum_congr rfl fun d _ => ?_
  exact congrArg₂ (· * ·) (shapeCast_1ab_ab_apply v0 h0 r d) (shapeCast_1ab_ab_apply v3 h3 d h)

/-- The second layer over any 1024×1024 hidden block `A`: at row `r` and column `o`, the hidden row's inner product with
    the second matrix's column `o`, plus the second bias row's entry `o`. -/
theorem second_apply (A : FVec Ideal S1024x1024 .f32) (v13 : Vec Ideal S1x1024x64 .f32) (v17 : Vec Ideal S1x1x64 .f32)
    (h13 : S1x1024x64.ShapeCasts S1024x64) (h17 : S1x1x64.ShapeCasts S1x64) (hb : S1x64.Broadcasts S1024x64)
    (hl : FTy.bits .bf16 < FTy.bits .f32) (r : Fin 1024) (o : Fin 64) :
    addf (F := Ideal) (matmul dot_S1024x1024_S1024x64_S1024x64_1_0_0_1_n_n none
        (truncf .bf16 A hl) (truncf .bf16 (shapeCast S1024x64 v13 h13) hl)
        (constant (F := Ideal) S1024x64 .f32 0x00000000#32))
      (broadcastTo S1024x64 (shapeCast S1x64 v17 h17) hb) (ix2 r o)
    = (∑ h : Fin 1024, A (ix2 r h) * v13 (ix3 (0 : Fin 1) h o)) + v17 (ix3 (0 : Fin 1) (0 : Fin 1) o) := by
  refine (addf_apply _ _ _).trans ?_
  refine congrArg₂ (· + ·) ?_ (row_over_rows v17 h17 hb r o)
  refine (Cert.LibMatmulNN.matmul_zero_apply dot_S1024x1024_S1024x64_S1024x64_1_0_0_1_n_n rfl none _ _ r o).trans ?_
  refine Finset.sum_congr rfl fun h _ => ?_
  exact congrArg₂ (· * ·) rfl (shapeCast_1ab_ab_apply v13 h13 h o)

/-- The block the body stores, at `(u, r, o)` (`u` the unit axis): the two-layer perceptron of the loaded blocks. -/
theorem stored_apply (v0 : Vec Ideal S1x1024x512 .f32) (v3 : Vec Ideal S1x512x1024 .f32) (v7 : Vec Ideal S1x1x1024 .f32)
    (v13 : Vec Ideal S1x1024x64 .f32) (v17 : Vec Ideal S1x1x64 .f32) (u : Fin 1) (r : Fin 1024) (o : Fin 64) :
    k0_pay1 (F := Ideal) v0 v3 v7 v13 v17 (ix3 u r o)
      = (∑ h : Fin 1024, Ideal.logistic ((∑ d : Fin 512, v0 (ix3 (0 : Fin 1) r d) * v3 (ix3 (0 : Fin 1) d h))
            + v7 (ix3 (0 : Fin 1) (0 : Fin 1) h)) * v13 (ix3 (0 : Fin 1) h o))
        + v17 (ix3 (0 : Fin 1) (0 : Fin 1) o) := by
  unfold k0_pay1
  refine (shapeCast_ab_1ab_apply _ _ u r o).trans ?_
  refine (second_apply _ v13 v17 _ _ _ _ r o).trans ?_
  refine congrArg₂ (· + ·) (Finset.sum_congr rfl fun h _ => congrArg₂ (· * ·) ?_ rfl) rfl
  exact congrArg Ideal.logistic (preact_apply v0 v3 v7 _ _ _ _ _ r h)

end Cert.KernelIdeal.Body

end
-- ==== Proof.OutputArray.lean ====
/-
  The output array after the kernel has run is the grouped perceptron of the argument arrays.

  The grid has 8 × 16 points (type `t0`, row tile `t1`).  At a point the kernel is handed rows
  `1024·t1 … 1024·t1 + 1023` of `x[t0]`, all of `w1[t0]`, `b1[t0]`, `w2[t0]`, `b2[t0]` (the two biases through arrays
  that carry an extra unit axis: the bias with its rows relabelled `(t, 0, h)`), and it writes rows
  `1024·t1 … 1024·t1 + 1023` of `out[t0]`.  By BlockBody.lean the block written is, entry by entry, the perceptron of the
  blocks read; the blocks read are the argument arrays' entries at the same type and rows; so the block written is a block
  of ONE function of the argument arrays, `GroupedMlp.out`.  Every row `n` of every type lies in the block of the point
  `(t0, n / 1024)`, so the 128 blocks cover the output array and it ends holding that function.
-/
import proofs.«180774_j7121055776912_1_alg».proof.Proof.Gen.KernelIdeal.Frame
import proofs.«180774_j7121055776912_1_alg».proof.Proof.BlockBody
import proofs.«180774_j7121055776912_1_alg».proof.Proof.GroupedMlp
import Idealize.ShloMosaic.Lib.Pipeline.Value
import Idealize.ShloMosaic.Lib.StableHlo.Run

noncomputable section

namespace Cert.KernelIdeal.OutputArray

open Cert.KernelIdeal Cert.KernelIdeal.Gen Idealize.ShloMosaic Idealize.ShloMosaic.TcCoe Idealize.SL.Sem Idealize.ShloMosaic.StableHlo
open Idealize.ShloMosaic.ValueIdx Cert.GroupedMlp
open Idealize.ShloMosaic.Pipeline (Dat)

variable (m : (ℓ : Loc nD τ sig) → Buf (Elt Ideal) ℓ)

theorem zero_offsets : (![0, 0, 0] : Fin 3 → Nat) = fun _ => 0 := funext fun a => by fin_cases a <;> rfl

/-! ## Where each window's block sits, decided once over the 128 points -/

/-- The output window's block index is `(t0, t1, 0)` with `t0 < 8`, `t1 < 16`; the row window of `x` moves with it;
    the four per-type windows sit at `(t0, 0, 0)`. -/
theorem block_indices : ∀ t : Fin cfg0.N,
    win0_5.index t (0 : Fin 3) < 8 ∧ win0_5.index t (1 : Fin 3) < 16 ∧ win0_5.index t (2 : Fin 3) = 0
    ∧ win0_0.index t (0 : Fin 3) = win0_5.index t (0 : Fin 3) ∧ win0_0.index t (1 : Fin 3) = win0_5.index t (1 : Fin 3) ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = 0 ∧ win0_3.index t (2 : Fin 3) = 0
    ∧ win0_4.index t (0 : Fin 3) = win0_5.index t (0 : Fin 3) ∧ win0_4.index t (1 : Fin 3) = 0 ∧ win0_4.index t (2 : Fin 3) = 0 :=
  (by decide +kernel : ∀ t : Fin grid0.N, _)

/-- Every (type, row tile) is some point's output block. -/
theorem block_onto : ∀ (q0 : Fin 8) (q1 : Fin 16), ∃ t : Fin cfg0.N, win0_5.index t = ![q0.val, q1.val, 0] :=
  (by decide +kernel : ∀ (q0 : Fin 8) (q1 : Fin 16), ∃ t : Fin grid0.N, win0_5.index t = ![q0.val, q1.val, 0])

/-! ## The two biases as the region finds them: a unit axis inserted -/

/-- The first bias with the unit axis, read at `(t, 0, h)`, is the launched bias at `(t, h)`. -/
theorem bias1_apply (c : Dev nD) (k : S8x1x1024.Idx) (t : Fin 8) (h : Fin 1024)
    (h0 : (k 0).val = t.val) (h1 : (k 1).val = 0) (h2 : (k 2).val = h.val) :
    (V m c main_v0 : S8x1x1024.Idx → EReal) k = m ((c : Thread nD τ).loc main_arg2) (ix2 t h) := by
  have e : (V m c main_v0 : S8x1x1024.Idx → EReal)
      = shapeCast S8x1x1024 (m ((c : Thread nD τ).loc main_arg2)) shapeCasts_S8x1024_S8x1x1024 := by
    show StableHlo.after hostOps0 (fun b => m (c, b)) (Proc.devRef .tc main_v0) = _
    after_results
    rfl
  rw [e]
  refine shapeCast_apply _ _ k (ix2 t h) ?_
  rw [Shape.rowMajor_val_two, Shape.rowMajor_val_three]
  show t.val * 1024 + h.val = ((k 0).val * 1 + (k 1).val) * 1024 + (k 2).val
  omega

/-- The second bias with the unit axis, read at `(t, 0, o)`, is the launched bias at `(t, o)`. -/
theorem bias2_apply (c : Dev nD) (k : S8x1x64.Idx) (t : Fin 8) (o : Fin 64)
    (h0 : (k 0).val = t.val) (h1 : (k 1).val = 0) (h2 : (k 2).val = o.val) :
    (V m c main_v1 : S8x1x64.Idx → EReal) k = m ((c : Thread nD τ).loc main_arg4) (ix2 t o) := by
  have e : (V m c main_v1 : S8x1x64.Idx → EReal)
      = shapeCast S8x1x64 (m ((c : Thread nD τ).loc main_arg4)) shapeCasts_S8x64_S8x1x64 := by
    show StableHlo.after hostOps0 (fun b => m (c, b)) (Proc.devRef .tc main_v1) = _
    after_results
    rfl
  rw [e]
  refine shapeCast_apply _ _ k (ix2 t o) ?_
  rw [Shape.rowMajor_val_two, Shape.rowMajor_val_three]
  show t.val * 64 + o.val = ((k 0).val * 1 + (k 1).val) * 64 + (k 2).val
  omega

/-! ## Each input block is its array read at the block's place -/

/-- A block entry sits in the array at block index × block size + its coordinate, axis by axis. -/
theorem x_block (c : Dev nD) (t : Fin cfg0.N) (u : Fin 1) (r : Fin 1024) (d : Fin 512) (k : S8x16384x512.Idx)
    (h0 : (k 0).val = win0_0.index t (0 : Fin 3)) (h1 : (k 1).val = win0_0.index t (1 : Fin 3) * 1024 + r.val)
    (h2 : (k 2).val = win0_0.index t (2 : Fin 3) * 512 + d.val) :
    (iblk m c 0 t : Vec Ideal S1x1024x512 .f32) (ix3 u r d) = m ((c : Thread nD τ).loc main_arg0) k := by
  rw [← V_main_arg0 m c]
  show V m c main_arg0 (((cfg0.win 0).blk t).view.emb (ix3 u r d)) = V m c main_arg0 k
  refine congrArg (V m c main_arg0) (funext fun a => Fin.ext ?_)
  have hu := u.isLt
  match a with
  | ⟨0, _⟩ => show win0_0.index t (0 : Fin 3) * 1 + 1 * u.val = (k 0).val; omega
  | ⟨1, _⟩ => show win0_0.index t (1 : Fin 3) * 1024 + 1 * r.val = (k 1).val; omega
  | ⟨2, _⟩ => show win0_0.index t (2 : Fin 3) * 512 + 1 * d.val = (k 2).val; omega

theorem w1_block (c : Dev nD) (t : Fin cfg0.N) (u : Fin 1) (d : Fin 512) (h : Fin 1024) (k : S8x512x1024.Idx)
    (h0 : (k 0).val = win0_1.index t (0 : Fin 3)) (h1 : (k 1).val = win0_1.index t (1 : Fin 3) * 512 + d.val)
    (h2 : (k 2).val = win0_1.index t (2 : Fin 3) * 1024 + h.val) :
    (iblk m c 1 t : Vec Ideal S1x512x1024 .f32) (ix3 u d h) = m ((c : Thread nD τ).loc main_arg1) k := by
  rw [← V_main_arg1 m c]
  show V m c main_arg1 (((cfg0.win 1).blk t).view.emb (ix3 u d h)) = V m c main_arg1 k
  refine congrArg (V m c main_arg1) (funext fun a => Fin.ext ?_)
  have hu := u.isLt
  match a with
  | ⟨0, _⟩ => show win0_1.index t (0 : Fin 3) * 1 + 1 * u.val = (k 0).val; omega
  | ⟨1, _⟩ => show win0_1.index t (1 : Fin 3) * 512 + 1 * d.val = (k 1).val; omega
  | ⟨2, _⟩ => show win0_1.index t (2 : Fin 3) * 1024 + 1 * h.val = (k 2).val; omega

theorem b1_block (c : Dev nD) (t : Fin cfg0.N) (u u' : Fin 1) (h : Fin 1024) (k : S8x1x1024.Idx)
    (h0 : (k 0).val = win0_2.index t (0 : Fin 3)) (h1 : (k 1).val = win0_2.index t (1 : Fin 3) * 1 + u'.val)
    (h2 : (k 2).val = win0_2.index t (2 : Fin 3) * 1024 + h.val) :
    (iblk m c 2 t : Vec Ideal S1x1x1024 .f32) (ix3 u u' h) = (V m c main_v0 : S8x1x1024.Idx → EReal) k := by
  show V m c main_v0 (((cfg0.win 2).blk t).view.emb (ix3 u u' h)) = V m c main_v0 k
  refine congrArg (V m c main_v0) (funext fun a => Fin.ext ?_)
  have hu := u.isLt
  match a with
  | ⟨0, _⟩ => show win0_2.index t (0 : Fin 3) * 1 + 1 * u.val = (k 0).val; omega
  | ⟨1, _⟩ => show win0_2.index t (1 : Fin 3) * 1 + 1 * u'.val = (k 1).val; omega
  | ⟨2, _⟩ => show win0_2.index t (2 : Fin 3) * 1024 + 1 * h.val = (k 2).val; omega

theorem w2_block (c : Dev nD) (t : Fin cfg0.N) (u : Fin 1) (h : Fin 1024) (o : Fin 64) (k : S8x1024x64.Idx)
    (h0 : (k 0).val = win0_3.index t (0 : Fin 3)) (h1 : (k 1).val = win0_3.index t (1 : Fin 3) * 1024 + h.val)
    (h2 : (k 2).val = win0_3.index t (2 : Fin 3) * 64 + o.val) :
    (iblk m c 3 t : Vec Ideal S1x1024x64 .f32) (ix3 u h o) = m ((c : Thread nD τ).loc main_arg3) k := by
  rw [← V_main_arg3 m c]
  show V m c main_arg3 (((cfg0.win 3).blk t).view.emb (ix3 u h o)) = V m c main_arg3 k
  refine congrArg (V m c main_arg3) (funext fun a => Fin.ext ?_)
  have hu := u.isLt
  match a with
  | ⟨0, _⟩ => show win0_3.index t (0 : Fin 3) * 1 + 1 * u.val = (k 0).val; omega
  | ⟨1, _⟩ => show win0_3.index t (1 : Fin 3) * 1024 + 1 * h.val = (k 1).val; omega
  | ⟨2, _⟩ => show win0_3.index t (2 : Fin 3) * 64 + 1 * o.val = (k 2).val; omega

theorem b2_block (c : Dev nD) (t : Fin cfg0.N) (u u' : Fin 1) (o : Fin 64) (k : S8x1x64.Idx)
    (h0 : (k 0).val = win0_4.index t (0 : Fin 3)) (h1 : (k 1).val = win0_4.index t (1 : Fin 3) * 1 + u'.val)
    (h2 : (k 2).val = win0_4.index t (2 : Fin 3) * 64 + o.val) :
    (iblk m c 4 t : Vec Ideal S1x1x64 .f32) (ix3 u u' o) = (V m c main_v1 : S8x1x64.Idx → EReal) k := by
  show V m c main_v1 (((cfg0.win 4).blk t).view.emb (ix3 u u' o)) = V m c main_v1 k
  refine congrArg (V m c main_v1) (funext fun a => Fin.ext ?_)
  have hu := u.isLt
  match a with
  | ⟨0, _⟩ => show win0_4.index t (0 : Fin 3) * 1 + 1 * u.val = (k 0).val; omega
  | ⟨1, _⟩ => show win0_4.index t (1 : Fin 3) * 1 + 1 * u'.val = (k 1).val; omega
  | ⟨2, _⟩ => show win0_4.index t (2 : Fin 3) * 64 + 1 * o.val = (k 2).val; omega

/-! ## The stored block is a block of the perceptron -/

/-- Blocks that are the argument arrays' entries of type `t0` and rows `n0 … n0 + 1023` give, through the body, the
    perceptron's output of type `t0` at those rows. -/
theorem stored_is_out (X : (⟨3, ![8, 16384, 512]⟩ : Shape).Idx → EReal) (W1 : (⟨3, ![8, 512, 1024]⟩ : Shape).Idx → EReal)
    (B1 : (⟨2, ![8, 1024]⟩ : Shape).Idx → EReal) (W2 : (⟨3, ![8, 1024, 64]⟩ : Shape).Idx → EReal)
    (B2 : (⟨2, ![8, 64]⟩ : Shape).Idx → EReal)
    (x0 : Vec Ideal S1x1024x512 .f32) (x1 : Vec Ideal S1x512x1024 .f32) (x2 : Vec Ideal S1x1x1024 .f32)
    (x3 : Vec Ideal S1x1024x64 .f32) (x4 : Vec Ideal S1x1x64 .f32)
    (t0 : Fin 8) (n0 : Nat) (hn : n0 + 1024 ≤ 16384)
    (hx0 : ∀ (r : Fin 1024) (d : Fin 512), x0 (ix3 (0 : Fin 1) r d) = X (ix3 t0 (⟨n0 + r.val, by have := r.isLt; omega⟩ : Fin 16384) d))
    (hx1 : ∀ (d : Fin 512) (h : Fin 1024), x1 (ix3 (0 : Fin 1) d h) = W1 (ix3 t0 d h))
    (hx2 : ∀ h : Fin 1024, x2 (ix3 (0 : Fin 1) (0 : Fin 1) h) = B1 (ix2 t0 h))
    (hx3 : ∀ (h : Fin 1024) (o : Fin 64), x3 (ix3 (0 : Fin 1) h o) = W2 (ix3 t0 h o))
    (hx4 : ∀ o : Fin 64, x4 (ix3 (0 : Fin 1) (0 : Fin 1) o) = B2 (ix2 t0 o))
    (u : Fin 1) (r : Fin 1024) (o : Fin 64) :
    k0_pay1 (F := Ideal) x0 x1 x2 x3 x4 (ix3 u r o)
      = outAt X W1 B1 W2 B2 t0 (⟨n0 + r.val, by have := r.isLt; omega⟩ : Fin 16384) o := by
  rw [Cert.KernelIdeal.Body.stored_apply]
  unfold Cert.GroupedMlp.outAt Cert.GroupedMlp.hidden
  simp only [hx0, hx1, hx2, hx3, hx4]

/-- WHAT POINT `t` WRITES BACK is block `t` of the perceptron of the argument arrays. -/
theorem flushed_eq (c : Dev nD) (t : Fin cfg0.N) :
    (dats m 0 c).flushed 5 t = ((cfg0.win 5).blk t).view.read (Elt Ideal)
      (out (m ((c : Thread nD τ).loc main_arg0)) (m ((c : Thread nD τ).loc main_arg1)) (m ((c : Thread nD τ).loc main_arg2))
        (m ((c : Thread nD τ).loc main_arg3)) (m ((c : Thread nD τ).loc main_arg4))) := by
  show (cfg0.win 5).cut (grid0.coords t) ((dats m 0 c).after 5 t) = _
  rw [after0_5]
  unfold out0_5
  rw [View.canon_unit_zero zero_offsets]
  simp only [View.ld_unit_zero (S := S1x1024x512) zero_offsets, View.ld_unit_zero (S := S1x512x1024) zero_offsets,
    View.ld_unit_zero (S := S1x1x1024) zero_offsets, View.ld_unit_zero (S := S1x1024x64) zero_offsets,
    View.ld_unit_zero (S := S1x1x64) zero_offsets]
  obtain ⟨a0, a1, a2, e00, e01, e02, e10, e11, e12, e20, e21, e22, e30, e31, e32, e40, e41, e42⟩ := block_indices t
  funext y
  obtain ⟨u, r, o, rfl⟩ : ∃ (u : Fin 1) (r : Fin 1024) (o : Fin 64), y = ix3 u r o := ⟨y 0, y 1, y 2, @eq_ix3 1 1024 64 y⟩
  show k0_pay1 (F := Ideal) (iblk m c 0 t) (iblk m c 1 t) (iblk m c 2 t) (iblk m c 3 t) (iblk m c 4 t) (ix3 u r o)
    = out (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb (ix3 u r o))
  have hr := r.isLt
  have hemb : ((cfg0.win 5).blk t).view.emb (ix3 u r o)
      = ix3 (⟨win0_5.index t (0 : Fin 3), a0⟩ : Fin 8) (⟨win0_5.index t (1 : Fin 3) * 1024 + r.val, by omega⟩ : Fin 16384) o :=
    funext fun a => Fin.ext (by
      have hu := u.isLt
      match a with
      | ⟨0, _⟩ => show win0_5.index t (0 : Fin 3) * 1 + 1 * u.val = win0_5.index t (0 : Fin 3); omega
      | ⟨1, _⟩ => show win0_5.index t (1 : Fin 3) * 1024 + 1 * r.val = win0_5.index t (1 : Fin 3) * 1024 + r.val; omega
      | ⟨2, _⟩ => show win0_5.index t (2 : Fin 3) * 64 + 1 * o.val = o.val; omega)
  rw [hemb, out_ix3]
  refine stored_is_out (m ((c : Thread nD τ).loc main_arg0)) (m ((c : Thread nD τ).loc main_arg1)) (m ((c : Thread nD τ).loc main_arg2))
    (m ((c : Thread nD τ).loc main_arg3)) (m ((c : Thread nD τ).loc main_arg4))
    (iblk m c 0 t) (iblk m c 1 t) (iblk m c 2 t) (iblk m c 3 t) (iblk m c 4 t)
    (⟨win0_5.index t (0 : Fin 3), a0⟩ : Fin 8) (win0_5.index t (1 : Fin 3) * 1024) (by omega) ?_ ?_ ?_ ?_ ?_ u r o
  · intro r' d
    have := r'.isLt
    exact x_block m c t 0 r' d _ (by show win0_5.index t (0 : Fin 3) = _; omega)
      (by show win0_5.index t (1 : Fin 3) * 1024 + r'.val = _; omega) (by show d.val = _; omega)
  · intro d h
    exact w1_block m c t 0 d h _ (by show win0_5.index t (0 : Fin 3) = _; omega) (by show d.val = _; omega) (by show h.val = _; omega)
  · intro h
    refine (b1_block m c t 0 0 h (ix3 (⟨win0_5.index t (0 : Fin 3), a0⟩ : Fin 8) (0 : Fin 1) h)
      (by show win0_5.index t (0 : Fin 3) = _; omega) (by show (0 : Fin 1).val = _; simp; omega) (by show h.val = _; omega)).trans ?_
    exact bias1_apply m c _ _ h rfl rfl rfl
  · intro h o'
    exact w2_block m c t 0 h o' _ (by show win0_5.index t (0 : Fin 3) = _; omega) (by show h.val = _; omega) (by show o'.val = _; omega)
  · intro o'
    refine (b2_block m c t 0 0 o' (ix3 (⟨win0_5.index t (0 : Fin 3), a0⟩ : Fin 8) (0 : Fin 1) o')
      (by show win0_5.index t (0 : Fin 3) = _; omega) (by show (0 : Fin 1).val = _; simp; omega) (by show o'.val = _; omega)).trans ?_
    exact bias2_apply m c _ _ o' rfl rfl rfl

/-! ## The 128 blocks cover the output array -/

/-- An index of the output array is in point `t`'s block iff each coordinate is in the block's range on its axis. -/
theorem mem_block (t : Fin cfg0.N) (i : S8x16384x64.Idx) :
    i ∈ ((cfg0.win 5).blk t).view.set ↔ ∀ a : Fin 3, win0_5.index t a * S1x1024x64.size a ≤ (i a).val
      ∧ (i a).val < win0_5.index t a * S1x1024x64.size a + S1x1024x64.size a := by
  show i ∈ ((View.whole main_v2).slice (win0_5.rect t)).set ↔ _
  rw [View.set_slice_whole, Rect.mem_set_unit]
  exact Iff.rfl

/-- Row `n` of type `t0` is in the block of the point `(t0, n / 1024)`. -/
theorem covered (i : S8x16384x64.Idx) :
    ∃ t : Fin cfg0.N, (cfg0.win 5).flush t = true ∧ i ∈ ((cfg0.win 5).blk t).view.set := by
  have hi0 : (i 0).val < 8 := (i 0).isLt
  have hi1 : (i 1).val < 16384 := (i 1).isLt
  have hi2 : (i 2).val < 64 := (i 2).isLt
  obtain ⟨t, ht⟩ := block_onto ⟨(i 0).val, hi0⟩ ⟨(i 1).val / 1024, by omega⟩
  have q0 : win0_5.index t (0 : Fin 3) = (i 0).val := congrFun ht 0
  have q1 : win0_5.index t (1 : Fin 3) = (i 1).val / 1024 := congrFun ht 1
  have q2 : win0_5.index t (2 : Fin 3) = 0 := congrFun ht 2
  refine ⟨t, flush0_5 t, ?_⟩
  rw [mem_block]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 64 ≤ (i 2).val ∧ (i 2).val < win0_5.index t (2 : Fin 3) * 64 + 64; omega

/-- THE OUTPUT ARRAY after the run is the grouped perceptron of the argument arrays as launched. -/
theorem final (c : Dev nD) :
    (dats m 0 c).arrAt 5 cfg0.N
      = out (m ((c : Thread nD τ).loc main_arg0)) (m ((c : Thread nD τ).loc main_arg1)) (m ((c : Thread nD τ).loc main_arg2))
          (m ((c : Thread nD τ).loc main_arg3)) (m ((c : Thread nD τ).loc main_arg4)) :=
  (dats m 0 c).arrAt_eq_of_cover 5 _ (fun t _ => flushed_eq m c t) covered

end Cert.KernelIdeal.OutputArray

end
-- ==== Proof.SortTail.lean ====
/-
  The kernel program's second result: the stable argsort of the node types, as 8 rows of 16384.

  After the grouped perceptron has run, the program sorts the pairs (node type, position) by node type with a stable
  sort, keeps the positions, and lays the 131072 positions out as an 8×16384 array.  None of this reads or writes any
  array the perceptron touches, so the node types it sorts are the ones the program was launched with.  The sort itself is
  never opened: the other program applies the same sort to the same node types, and equal functions of equal arguments
  are equal.
-/
import proofs.«180774_j7121055776912_1_alg».proof.Proof.Gen.KernelIdeal.Frame
import Idealize.ShloMosaic.Lib.StableHlo.Run

noncomputable section

namespace Cert.KernelIdeal.SortTail

open Cert.KernelIdeal Cert.KernelIdeal.Gen Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ)

/-- The positions array after the lines that follow the region: the second component of the stable sort of
    (node types, 0 … 131071) by node type, reshaped to 8×16384 — of the node types as launched. -/
theorem positions (c : Dev nD) :
    Pipeline.afterTail₀ cfgs (dats m) 0 (V0 m) [hostOps1, hostOps1_1] c main_v4
      = shapeCast _ ((Host.sort2 S131072 0 comparator_i32_i32_d0 (m ((c : Thread nD τ).loc main_arg5)) (iotaInDim S131072 32 0)).2) shapeCasts_S131072_S8x16384 := by
  have e : Pipeline.withArrays (cfgs 0).spec c (V0 m c) (fun w => (dats m 0 c).arrAt w (cfgs 0).N) (Proc.devRef .tc main_arg5)
      = m ((c : Thread nD τ).loc main_arg5) :=
    (Pipeline.withArrays_of_ne _ c (V0 m c) _ main_arg5 (by exact (by decide : ∀ w, Pipeline.arrRef spec0 w ≠ main_arg5))).trans
      (V_main_arg5 m c)
  unfold Pipeline.afterTail₀
  rw [← e]
  generalize Pipeline.withArrays (cfgs 0).spec c (V0 m c) (fun w => (dats m 0 c).arrAt w (cfgs 0).N) = W
  simp only [hostOps1, hostOps1_1, List.flatten_cons, List.flatten_nil, List.append_nil, List.cons_append, List.nil_append]
  after_results
  rfl

end Cert.KernelIdeal.SortTail

end
-- ==== Proof.KernelRun.lean ====
/-
  The kernel program's run, read: every execution ends with the output array at the grouped perceptron of the arguments,
  the positions array at the stable argsort of the node types in 8 rows, and the six argument arrays as launched.

  The generated frame run already says that every execution terminates without a fault, with each array the kernel's
  windows move at what the write-backs leave and every other buffer at what the lines after the kernel leave.  Here those
  two descriptions are replaced by closed ones: the write-backs leave the perceptron (OutputArray.lean), the later lines
  leave the argsort (SortTail.lean), and an argument array is either a window that is only ever read or a buffer no line
  writes.
-/
import proofs.«180774_j7121055776912_1_alg».proof.Proof.OutputArray
import proofs.«180774_j7121055776912_1_alg».proof.Proof.SortTail

noncomputable section

namespace Cert.KernelIdeal.Run

open Cert.KernelIdeal Cert.KernelIdeal.Gen Idealize.ShloMosaic Idealize.ShloMosaic.TcCoe Idealize.SL.Sem
open Cert.GroupedMlp
open Idealize.ShloMosaic.Pipeline (Dat)

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c : Thread nD τ).loc main_v4)
        = shapeCast _ ((Host.sort2 S131072 0 comparator_i32_i32_d0 (m ((c : Thread nD τ).loc main_arg5)) (iotaInDim S131072 32 0)).2) shapeCasts_S131072_S8x16384
      ∧ r.2.mem ((c : Thread nD τ).loc main_v2)
        = out (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨
      ((h c).2 main_v4 (Pipeline.mem_restRefs_of main_v4 (by decide) (by decide))).trans (Cert.KernelIdeal.SortTail.positions m c),
      ((h c).1 5).trans (Cert.KernelIdeal.OutputArray.final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Run

end
-- ==== Proof.lean ====
/-
  Eight two-layer perceptrons with a logistic activation, one per node type, each applied to its own 16384 rows, and the
  stable argsort of the node types: the kernel program and the reference compute the same two arrays.

  The kernel program runs the perceptrons tile by tile (1024 rows at a time, the weights of the tile's type beside them)
  and the reference runs them as two batched contractions over whole arrays, with the logistic function spelt out as
  `1 / (1 + exp(−z))`.  Over the extended reals both are, entry by entry,

      out[t, n, o] = Σ_h σ( Σ_d x[t, n, d] · w1[t, d, h] + b1[t, h] ) · w2[t, h, o] + b2[t, o]

  (GroupedMlp.lean): the reference by reading its operations one at a time (ReferenceIsMlp.lean), the kernel by reading
  what its body stores from the blocks it loads (BlockBody.lean), where those blocks sit in the arrays and that the
  stored blocks cover the output (OutputArray.lean).  The two sides are the SAME nested sums in the same order, so no law
  of arithmetic beyond reflexivity joins them, and the precondition (finite inputs) is never used.  The second result,
  the positions of the stable sort, is the same function of the same node types in both programs (SortTail.lean), and is
  never evaluated.

  The three frame claims: the two kernel programs' are the generated frame certificates; the reference's is its generated
  run with the results dropped.  No operation of the kernel was rewritten on the way to its idealized reading, so the
  claim that the idealization is the sanctioned one is `True`.
-/
import proofs.«180774_j7121055776912_1_alg».proof.Defs
import proofs.«180774_j7121055776912_1_alg».proof.Proof.Gen.Kernel
import proofs.«180774_j7121055776912_1_alg».proof.Proof.Gen.Kernel.Frame
import proofs.«180774_j7121055776912_1_alg».proof.Proof.Gen.KernelIdeal
import proofs.«180774_j7121055776912_1_alg».proof.Proof.Gen.KernelIdeal.Frame
import proofs.«180774_j7121055776912_1_alg».proof.Proof.Gen.ReferenceIdeal
import proofs.«180774_j7121055776912_1_alg».proof.Proof.Gen.Pre_finite_inputs
import proofs.«180774_j7121055776912_1_alg».proof.Proof.Gen.ReferenceIdeal.Run
import proofs.«180774_j7121055776912_1_alg».proof.Proof.Gen.ReferenceIdeal.Read
import proofs.«180774_j7121055776912_1_alg».proof.Proof.ReferenceIsMlp
import proofs.«180774_j7121055776912_1_alg».proof.Proof.KernelRun

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The comparison the two programs sort by is one function: "the first key is less, as signed integers". -/
theorem comparator_eq : Cert.ReferenceIdeal.comparator_i32_i32_d0 = Cert.KernelIdeal.comparator_i32_i32_d0 := rfl

/-- From memories that agree on the six arguments both programs end with the positions array at the stable argsort of the
    node types and the output array at the grouped perceptron of the other five arguments. -/
theorem algebraic : Cert.algebraic_KernelIdeal_ReferenceIdeal := by
  intro m ρ m' ρ' _ hagree
  refine ⟨_, _, Cert.KernelIdeal.Run.run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  refine ⟨(h c).1.trans ?_, (h c).2.1.trans ?_, (h c).2.2⟩
  · rw [a5, comparator_eq]
  · rw [Cert.ReferenceIdeal.Read.val_main_v13_eq, Cert.ReferenceIdeal.IsMlp.result_eq, a0, a1, a2, a3, a4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
